-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x64 : Shape := ⟨3, ![32, 1024, 64]⟩
abbrev S32x1024x1024 : Shape := ⟨3, ![32, 1024, 1024]⟩
abbrev S64x128 : Shape := ⟨2, ![64, 128]⟩
abbrev S128 : Shape := ⟨1, ![128]⟩
abbrev S_ : Shape := ⟨0, ![]⟩

class Facts : Prop where
  bcast_S_S32x1024x64 : S_.BroadcastsInDim S32x1024x64 (![] : Fin 0 → Fin S32x1024x64.rank)
  reducesTo_S32x1024x64_S_d0_1_2 : S32x1024x64.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S32x1024x64 .f32) (main_arg1 : FVec F S32x1024x1024 .f32) (main_arg2 : FVec F S64x128 .f32) (main_arg3 : FVec F S128 .f32) : IVec S_ 1 :=
  let main_v0 : FVec F S32x1024x64 .f32 := Host.absf main_arg0
  let main_cst : FVec F S_ .f32 := constant S_ .f32 0x7F800000#32
  let main_v1 : FVec F S32x1024x64 .f32 := broadcastInDim S32x1024x64 ![] bcast_S_S32x1024x64 main_cst
  let main_v2 : IVec S32x1024x64 1 := cmpf .olt main_v0 main_v1
  let main_c : IVec S_ 1 := constantI S_ 1 1#1
  let main_v3 : IVec S_ 1 := (fun x v => Host.reduce IntOp.andi x v reducesTo_S32x1024x64_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S32x1024x64 : Shape := ⟨3, ![32, 1024, 64]⟩
abbrev S32x1024x1024 : Shape := ⟨3, ![32, 1024, 1024]⟩
abbrev S64x128 : Shape := ⟨2, ![64, 128]⟩
abbrev S128 : Shape := ⟨1, ![128]⟩
abbrev S1x128 : Shape := ⟨2, ![1, 128]⟩
abbrev S32x1024x128 : Shape := ⟨3, ![32, 1024, 128]⟩
abbrev S2x1024x1024 : Shape := ⟨3, ![2, 1024, 1024]⟩
abbrev S2x1024x64 : Shape := ⟨3, ![2, 1024, 64]⟩
abbrev S2x1024x128 : Shape := ⟨3, ![2, 1024, 128]⟩
abbrev S2048x64 : Shape := ⟨2, ![2048, 64]⟩
abbrev S2048x128 : Shape := ⟨2, ![2048, 128]⟩
abbrev S1x1x128 : Shape := ⟨3, ![1, 1, 128]⟩

abbrev nBuf : Space → Nat
  | .hbm => 7
  | .vmem => 8
  | .smem => 0
  | _ => 0

abbrev bufTy : (tb : Table) → Fin (tcTables nBuf tb) → BufTy
  | .hbm, ⟨0, _⟩ => ⟨S32x1024x64, .f32⟩
  | .hbm, ⟨1, _⟩ => ⟨S32x1024x1024, .f32⟩
  | .hbm, ⟨2, _⟩ => ⟨S64x128, .f32⟩
  | .hbm, ⟨3, _⟩ => ⟨S128, .f32⟩
  | .hbm, ⟨4, _⟩ => ⟨S64x128, .bf16⟩
  | .hbm, ⟨5, _⟩ => ⟨S1x128, .f32⟩
  | .hbm, ⟨6, _⟩ => ⟨S32x1024x128, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1024x64, .f32⟩
  | .local _ .vmem, ⟨3, _⟩ => ⟨S2x1024x64, .f32⟩
  | .local _ .vmem, ⟨4, _⟩ => ⟨S64x128, .bf16⟩
  | .local _ .vmem, ⟨5, _⟩ => ⟨S1x128, .f32⟩
  | .local _ .vmem, ⟨6, _⟩ => ⟨S2x1024x128, .f32⟩
  | .local _ .vmem, ⟨7, _⟩ => ⟨S2x1024x128, .f32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S128_S1x128 : S128.ShapeCasts S1x128
  inb_S2x1024x1024_S2x1024x1024_0_0_0 : ∀ a, (![0, 0, 0] : Fin 3 → Nat) a + S2x1024x1024.size a ≤ S2x1024x1024.size a
  h_S2x1024x1024 : 0 < S2x1024x1024.numel
  inb_S2x1024x64_S2x1024x64_0_0_0 : ∀ a, (![0, 0, 0] : Fin 3 → Nat) a + S2x1024x64.size a ≤ S2x1024x64.size a
  h_S2x1024x64 : 0 < S2x1024x64.numel
  shapeCasts_S2x1024x64_S2048x64 : S2x1024x64.ShapeCasts S2048x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S2048x128_S2x1024x128 : S2048x128.ShapeCasts S2x1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S2x1024x128 : S1x1x128.Broadcasts S2x1024x128
  inb_S2x1024x128_S2x1024x128_0_0_0 : ∀ a, (![0, 0, 0] : Fin 3 → Nat) a + S2x1024x128.size a ≤ S2x1024x128.size a
  h_S2x1024x128 : 0 < S2x1024x128.numel
  dot_S2x1024x1024_S2x1024x64_S2x1024x64_2_1_1_2_0_0_wf : DotDims.WF S2x1024x1024 S2x1024x64 S2x1024x64 [2] [1] [1] [2] [0] [0]
  dot_S2048x64_S64x128_S2048x128_1_0_0_1_n_n_wf : DotDims.WF S2048x64 S64x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S32x1024x1024.size a
  hwx0_0 : ∀ i : grid0.Coords, EltTy.bits .f32 = 32 ∨ (Rect.block (s := S32x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x64.size a ≤ S32x1024x64.size a
  hwx0_1 : ∀ i : grid0.Coords, EltTy.bits .f32 = 32 ∨ (Rect.block (s := S32x1024x64) S2x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1024x128.size a ≤ S32x1024x128.size a
  hwx0_4 : ∀ i : grid0.Coords, EltTy.bits .f32 = 32 ∨ (Rect.block (s := S32x1024x128) S2x1024x128.size (cc0_transform_4 i) (hinb0_4 i)).WholeWords (EltTy.packing .f32)

variable [Facts₀]

def dot_S2x1024x1024_S2x1024x64_S2x1024x64_2_1_1_2_0_0 : DotDims S2x1024x1024 S2x1024x64 S2x1024x64 where
  lhsContracting := [2]
  rhsContracting := [1]
  lhsNonContracting := [1]
  rhsNonContracting := [2]
  lhsBatch := [0]
  rhsBatch := [0]
  wf := dot_S2x1024x1024_S2x1024x64_S2x1024x64_2_1_1_2_0_0_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

abbrev win0_0 : Pipeline.Window sig grid0 :=
  Pipeline.Window.ofSpec (Memref.whole main_arg1) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x64 : Shape := ⟨3, ![32, 1024, 64]⟩
abbrev S32x1024x1024 : Shape := ⟨3, ![32, 1024, 1024]⟩
abbrev S64x128 : Shape := ⟨2, ![64, 128]⟩
abbrev S128 : Shape := ⟨1, ![128]⟩
abbrev S32x1024x128 : Shape := ⟨3, ![32, 1024, 128]⟩
abbrev S1x1x128 : Shape := ⟨3, ![1, 1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S32x1024x1024, .f32⟩
  | .hbm, ⟨2, _⟩ => ⟨S64x128, .f32⟩
  | .hbm, ⟨3, _⟩ => ⟨S128, .f32⟩
  | .hbm, ⟨4, _⟩ => ⟨S32x1024x64, .f32⟩
  | .hbm, ⟨5, _⟩ => ⟨S32x1024x128, .f32⟩
  | .hbm, ⟨6, _⟩ => ⟨S1x1x128, .f32⟩
  | .hbm, ⟨7, _⟩ => ⟨S32x1024x128, .f32⟩
  | .hbm, ⟨8, _⟩ => ⟨S32x1024x128, .f32⟩
  | .hbm, ⟨9, _⟩ => ⟨S_, .f32⟩
  | .hbm, ⟨10, _⟩ => ⟨S32x1024x128, .f32⟩
  | .hbm, ⟨11, _⟩ => ⟨S32x1024x128, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  bcast_S_S32x1024x128 : S_.BroadcastsInDim S32x1024x128 (![] : Fin 0 → Fin S32x1024x128.rank)
  dot_S32x1024x1024_S32x1024x64_S32x1024x64_2_1_1_2_0_0_wf : DotDims.WF S32x1024x1024 S32x1024x64 S32x1024x64 [2] [1] [1] [2] [0] [0]
  dot_S32x1024x64_S64x128_S32x1024x128_2_0_01_1_n_n_wf : DotDims.WF S32x1024x64 S64x128 S32x1024x128 [2] [0] [0, 1] [1] [] []

variable [Facts₀]

def dot_S32x1024x1024_S32x1024x64_S32x1024x64_2_1_1_2_0_0 : DotDims S32x1024x1024 S32x1024x64 S32x1024x64 where
  lhsContracting := [2]
  rhsContracting := [1]
  lhsNonContracting := [1]
  rhsNonContracting := [2]
  lhsBatch := [0]
  rhsBatch := [0]
  wf := dot_S32x1024x1024_S32x1024x64_S32x1024x64_2_1_1_2_0_0_wf
def dot_S32x1024x64_S64x128_S32x1024x128_2_0_01_1_n_n : DotDims S32x1024x64 S64x128 S32x1024x128 where
  lhsContracting := [2]
  rhsContracting := [0]
  lhsNonContracting := [0, 1]
  rhsNonContracting := [1]
  lhsBatch := []
  rhsBatch := []
  wf := dot_S32x1024x64_S64x128_S32x1024x128_2_0_01_1_n_n_wf

class Facts : Prop extends Facts₀ where

variable [Facts]
-- ==== Proof.KernelPayload.lean ====
/-
  What the kernel body stores, read at one index of its output block.

  At a grid point the body holds two batches: a block `A` of the adjacency array, [2, 1024, 1024], a block `X` of the
  features, [2, 1024, 64], the whole weight matrix `W`, [64, 128], and the bias as a row, [1, 128]. It forms the batched
  product `A · X` (contracted over the neighbour axis), lays the two batches' rows one under the other as a
  [2048, 64] matrix, multiplies by `W`, cuts the [2048, 128] result back into two batches, adds the bias row to every
  node and takes the maximum with zero. Row `p · 1024 + n` of the tall matrix is row `n` of batch `p` (the row-major
  position is the same), so at index `(p, n, o)` the stored value is
    max (Σ_f (Σ_k A[p, n, k] · X[p, k, f]) · W[f, o] + bias[0, o]) 0,
  each matrix product into a zero accumulator being the plain finite sum over its contraction coordinate, and a change
  of float format being the identity on the extended reals.
-/
import proofs.«113447_j64226940944904_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- The batched product's dimension numbers: batch axis 0 on both sides, the left's axis 2 against the right's axis 1. -/
abbrev D1 : DotDims S2x1024x1024 S2x1024x64 S2x1024x64 := dot_S2x1024x1024_S2x1024x64_S2x1024x64_2_1_1_2_0_0
/-- The plain product's: the left's axis 1 against the right's axis 0. -/
abbrev D2 : DotDims S2048x64 S64x128 S2048x128 := dot_S2048x64_S64x128_S2048x128_1_0_0_1_n_n

/-! ## The operand indices of the batched product -/

theorem bmm_lhs0 (i : S2x1024x64.Idx) (q : D1.contr.Idx) : (D1.lhsIdx i q 0).val = (i 0).val := by
  unfold DotDims.lhsIdx
  rw [dif_pos (show (0 : Fin S2x1024x1024.rank) ∈ D1.lhsBatch by decide)]
  rfl
theorem bmm_lhs1 (i : S2x1024x64.Idx) (q : D1.contr.Idx) : (D1.lhsIdx i q 1).val = (i 1).val := by
  unfold DotDims.lhsIdx
  rw [dif_neg (show ¬(1 : Fin S2x1024x1024.rank) ∈ D1.lhsBatch by decide), dif_pos (show (1 : Fin S2x1024x1024.rank) ∈ D1.lhsNonContracting by decide)]
  rfl
theorem bmm_lhs2 (i : S2x1024x64.Idx) (q : D1.contr.Idx) : (D1.lhsIdx i q 2).val = (q ⟨0, by decide⟩).val :=
  D1.lhsIdx_val_of_single rfl i q
theorem bmm_rhs0 (i : S2x1024x64.Idx) (q : D1.contr.Idx) : (D1.rhsIdx i q 0).val = (i 0).val := by
  unfold DotDims.rhsIdx
  rw [dif_pos (show (0 : Fin S2x1024x64.rank) ∈ D1.rhsBatch by decide)]
  rfl
theorem bmm_rhs1 (i : S2x1024x64.Idx) (q : D1.contr.Idx) : (D1.rhsIdx i q 1).val = (q ⟨0, by decide⟩).val :=
  D1.rhsIdx_val_of_single rfl i q
theorem bmm_rhs2 (i : S2x1024x64.Idx) (q : D1.contr.Idx) : (D1.rhsIdx i q 2).val = (i 2).val := by
  unfold DotDims.rhsIdx
  rw [dif_neg (show ¬(2 : Fin S2x1024x64.rank) ∈ D1.rhsBatch by decide), dif_pos (show (2 : Fin S2x1024x64.rank) ∈ D1.rhsNonContracting by decide)]
  rfl

/-- The batched product into a zero accumulator, at `(p, n, f)`: row `n` of the left's batch `p` against column `f` of
    the right's batch `p`. -/
theorem bmm_apply (l : FVec Ideal S2x1024x1024 .bf16) (r : FVec Ideal S2x1024x64 .bf16) (p : Fin 2) (n : Fin 1024) (f : Fin 64) :
    matmul D1 none l r (constant (F := Ideal) S2x1024x64 .f32 0x00000000#32) (ix3 p n f)
      = ∑ k : Fin 1024, l (ix3 p n k) * r (ix3 p k f) := by
  refine (Ideal.matmul_constant_zero_apply D1 none l r (ix3 p n f)).trans ?_
  rw [← Equiv.sum_comp (contrEquiv1 D1 1024 rfl rfl).symm]
  refine Finset.sum_congr rfl fun k _ => ?_
  have hk := contrEquiv1_symm_val D1 1024 rfl rfl k
  have el : D1.lhsIdx (ix3 p n f) ((contrEquiv1 D1 1024 rfl rfl).symm k) = ix3 p n k := funext fun a => Fin.ext (by
    match a with
    | ⟨0, _⟩ => exact bmm_lhs0 _ _
    | ⟨1, _⟩ => exact bmm_lhs1 _ _
    | ⟨2, _⟩ => exact (bmm_lhs2 _ _).trans hk)
  have er : D1.rhsIdx (ix3 p n f) ((contrEquiv1 D1 1024 rfl rfl).symm k) = ix3 p k f := funext fun a => Fin.ext (by
    match a with
    | ⟨0, _⟩ => exact bmm_rhs0 _ _
    | ⟨1, _⟩ => exact (bmm_rhs1 _ _).trans hk
    | ⟨2, _⟩ => exact bmm_rhs2 _ _)
  rw [el, er]

/-! ## The operand indices of the plain product -/

theorem mm_lhs0 (i : S2048x128.Idx) (q : D2.contr.Idx) : (D2.lhsIdx i q 0).val = (i 0).val := by
  unfold DotDims.lhsIdx
  rw [dif_neg (show ¬(0 : Fin S2048x64.rank) ∈ D2.lhsBatch by decide), dif_pos (show (0 : Fin S2048x64.rank) ∈ D2.lhsNonContracting by decide)]
  rfl
theorem mm_lhs1 (i : S2048x128.Idx) (q : D2.contr.Idx) : (D2.lhsIdx i q 1).val = (q ⟨0, by decide⟩).val :=
  D2.lhsIdx_val_of_single rfl i q
theorem mm_rhs0 (i : S2048x128.Idx) (q : D2.contr.Idx) : (D2.rhsIdx i q 0).val = (q ⟨0, by decide⟩).val :=
  D2.rhsIdx_val_of_single rfl i q
theorem mm_rhs1 (i : S2048x128.Idx) (q : D2.contr.Idx) : (D2.rhsIdx i q 1).val = (i 1).val := by
  unfold DotDims.rhsIdx
  rw [dif_neg (show ¬(1 : Fin S64x128.rank) ∈ D2.rhsBatch by decide), dif_pos (show (1 : Fin S64x128.rank) ∈ D2.rhsNonContracting by decide)]
  rfl

/-- The plain product into a zero accumulator, at `(r, o)`: row `r` of the left against column `o` of the right. -/
theorem mm_apply (l : FVec Ideal S2048x64 .bf16) (w : FVec Ideal S64x128 .bf16) (r : Fin 2048) (o : Fin 128) :
    matmul D2 none l w (constant (F := Ideal) S2048x128 .f32 0x00000000#32) (ix2 r o)
      = ∑ f : Fin 64, l (ix2 r f) * w (ix2 f o) := by
  refine (Ideal.matmul_constant_zero_apply D2 none l w (ix2 r o)).trans ?_
  rw [← Equiv.sum_comp (contrEquiv1 D2 64 rfl rfl).symm]
  refine Finset.sum_congr rfl fun f _ => ?_
  have hf := contrEquiv1_symm_val D2 64 rfl rfl f
  have el : D2.lhsIdx (ix2 r o) ((contrEquiv1 D2 64 rfl rfl).symm f) = ix2 r f := funext fun a => Fin.ext (by
    match a with
    | ⟨0, _⟩ => exact mm_lhs0 _ _
    | ⟨1, _⟩ => exact (mm_lhs1 _ _).trans hf)
  have er : D2.rhsIdx (ix2 r o) ((contrEquiv1 D2 64 rfl rfl).symm f) = ix2 f o := funext fun a => Fin.ext (by
    match a with
    | ⟨0, _⟩ => exact (mm_rhs0 _ _).trans hf
    | ⟨1, _⟩ => exact mm_rhs1 _ _)
  rw [el, er]

/-! ## The layout operations -/

/-- Two batches of 1024 rows laid one under the other: row `p · 1024 + n` of the tall matrix is row `n` of batch `p`. -/
theorem rows_apply (v : FVec Ideal S2x1024x64 .bf16) (h : S2x1024x64.ShapeCasts S2048x64) (r : Fin 2048) (f : Fin 64)
    (p : Fin 2) (n : Fin 1024) (hr : r.val = p.val * 1024 + n.val) : shapeCast S2048x64 v h (ix2 r f) = v (ix3 p n f) := by
  refine shapeCast_apply v h (ix2 r f) (ix3 p n f) ?_
  rw [Shape.rowMajor_val_three, Shape.rowMajor_val_two]
  show (p.val * 1024 + n.val) * 64 + f.val = r.val * 64 + f.val
  rw [hr]

/-- The tall matrix cut back into two batches: row `n` of batch `p` is row `p · 1024 + n`. -/
theorem unrows_apply (v : FVec Ideal S2048x128 .f32) (h : S2048x128.ShapeCasts S2x1024x128) (p : Fin 2) (n : Fin 1024) (o : Fin 128)
    (r : Fin 2048) (hr : r.val = p.val * 1024 + n.val) : shapeCast S2x1024x128 v h (ix3 p n o) = v (ix2 r o) := by
  refine shapeCast_apply v h (ix3 p n o) (ix2 r o) ?_
  rw [Shape.rowMajor_val_three, Shape.rowMajor_val_two]
  show r.val * 128 + o.val = (p.val * 1024 + n.val) * 128 + o.val
  rw [hr]

/-- The bias row, viewed [1, 1, 128] and repeated along batch and node: at `(p, n, o)` it is the row's entry `o`. -/
theorem bias_apply (v : FVec Ideal S1x128 .f32) (h1 : S1x128.ShapeCasts S1x128) (h2 : S1x128.ShapeCasts S1x1x128)
    (h3 : S1x1x128.Broadcasts S2x1024x128) (p : Fin 2) (n : Fin 1024) (o : Fin 128) :
    broadcastTo S2x1024x128 (shapeCast S1x1x128 (shapeCast S1x128 v h1) h2) h3 (ix3 p n o) = v (ix2 (0 : Fin 1) o) := by
  rw [shapeCast_self]
  refine (broadcastTo_apply _ h3 (ix3 p n o) (ix3 (0 : Fin 1) (0 : Fin 1) o) (fun a => ?_)).trans ?_
  · match a with
    | ⟨0, _⟩ => show 0 = if (1 : Nat) = 1 then 0 else p.val; rw [if_pos rfl]
    | ⟨1, _⟩ => show 0 = if (1 : Nat) = 1 then 0 else n.val; rw [if_pos rfl]
    | ⟨2, _⟩ => show o.val = if (128 : Nat) = 1 then 0 else o.val; rw [if_neg (by decide)]
  · refine shapeCast_apply v h2 (ix3 (0 : Fin 1) (0 : Fin 1) o) (ix2 (0 : Fin 1) o) ?_
    rw [Shape.rowMajor_val_three, Shape.rowMajor_val_two]
    show 0 * 128 + o.val = (0 * 1 + 0) * 128 + o.val
    rfl

/-! ## The stored value -/

/-- The body's one store, at index `(p, n, o)` of the output block, from the four loaded blocks. -/
theorem pay_apply (v0 : Vec Ideal S2x1024x1024 .f32) (v2 : Vec Ideal S2x1024x64 .f32) (v7 : Vec Ideal S64x128 .bf16) (v11 : Vec Ideal S1x128 .f32)
    (p : Fin 2) (n : Fin 1024) (o : Fin 128) :
    k0_pay1 v0 v2 v7 v11 (ix3 p n o)
      = max ((∑ f : Fin 64, (∑ k : Fin 1024, v0 (ix3 p n k) * v2 (ix3 p k f)) * v7 (ix2 f o)) + v11 (ix2 (0 : Fin 1) o)) 0 := by
  have hp : p.val < 2 := p.isLt
  have hn : n.val < 1024 := n.isLt
  unfold k0_pay1
  rw [maximumf_apply, addf_apply, broadcast_apply, bias_apply,
    unrows_apply _ _ p n o ⟨p.val * 1024 + n.val, by omega⟩ rfl, mm_apply]
  rw [shapeCast_self]
  show max (_ + _) (Ideal.ofBits .f32 0x00000000#32) = _
  rw [Ideal.ofBits_zero_f32]
  refine congrArg (fun s => max (s + v11 (ix2 (0 : Fin 1) o)) 0) (Finset.sum_congr rfl fun f _ => ?_)
  rw [rows_apply _ _ _ f p n rfl, truncf_apply, bmm_apply]
  rfl

end Cert.KernelIdeal.Block

end
-- ==== Proof.Spec.lean ====
/-
  One graph-convolution layer on the extended reals, entry by entry.

  For a batch `b`, a node `n` and an output channel `o`:
    out[b, n, o] = max (Σ_f (Σ_k adj[b, n, k] · x[b, k, f]) · w[f, o] + bias[o]) 0.
  The inner sum is the aggregation of the neighbours' features through the dense adjacency matrix of batch `b`,
  the outer one the projection of the aggregated features; then the bias and the rectifier. The extended reals are a
  commutative monoid under `+`, so the two finite sums are well defined whatever the entries are (infinite ones included),
  and nothing below needs the inputs to be finite.
-/
import Idealize.ShloMosaic.PureOps.Ideal
import Idealize.ShloMosaic.Lib.ValueIdx

noncomputable section

namespace Cert.Gcn

open Idealize.ShloMosaic Idealize.ShloMosaic.ValueIdx

/-- Feature `f` of node `n` of batch `b` after aggregation: row `n` of the batch's adjacency matrix against
    column `f` of its feature matrix. -/
def agg (x : (⟨3, ![32, 1024, 64]⟩ : Shape).Idx → EReal) (adj : (⟨3, ![32, 1024, 1024]⟩ : Shape).Idx → EReal)
    (b : Fin 32) (n : Fin 1024) (f : Fin 64) : EReal :=
  ∑ k : Fin 1024, adj (ix3 b n k) * x (ix3 b k f)

/-- Entry `(b, n, o)` of the layer: the aggregated features of the node projected on channel `o`, plus the channel's
    bias, cut below at zero. -/
def entry (x : (⟨3, ![32, 1024, 64]⟩ : Shape).Idx → EReal) (adj : (⟨3, ![32, 1024, 1024]⟩ : Shape).Idx → EReal)
    (w : (⟨2, ![64, 128]⟩ : Shape).Idx → EReal) (bias : (⟨1, ![128]⟩ : Shape).Idx → EReal)
    (b : Fin 32) (n : Fin 1024) (o : Fin 128) : EReal :=
  max ((∑ f : Fin 64, agg x adj b n f * w (ix2 f o)) + bias (ix1 o)) 0

/-- The whole result array, as one function of the four argument arrays. -/
def layer (x : (⟨3, ![32, 1024, 64]⟩ : Shape).Idx → EReal) (adj : (⟨3, ![32, 1024, 1024]⟩ : Shape).Idx → EReal)
    (w : (⟨2, ![64, 128]⟩ : Shape).Idx → EReal) (bias : (⟨1, ![128]⟩ : Shape).Idx → EReal) :
    (⟨3, ![32, 1024, 128]⟩ : Shape).Idx → EReal :=
  fun i => entry x adj w bias (i 0) (i 1) (i 2)

theorem layer_apply (x : (⟨3, ![32, 1024, 64]⟩ : Shape).Idx → EReal) (adj : (⟨3, ![32, 1024, 1024]⟩ : Shape).Idx → EReal)
    (w : (⟨2, ![64, 128]⟩ : Shape).Idx → EReal) (bias : (⟨1, ![128]⟩ : Shape).Idx → EReal)
    (b : Fin 32) (n : Fin 1024) (o : Fin 128) : layer x adj w bias (ix3 b n o) = entry x adj w bias b n o := rfl

end Cert.Gcn

end
-- ==== Proof.KernelArray.lean ====
/-
  The kernel's result array, whole: the layer function of `Spec.lean` of the four argument arrays.

  The grid has 16 points; point `t` takes batches `2t` and `2t + 1`: block `t` of the adjacency array and of the
  features along the batch axis, the whole weight matrix (rounded to bf16 by the host before the launch, which is the
  identity on the extended reals) and the bias (viewed as a [1, 128] row by the host), and writes block `t` of the
  result. Entry `(p, n, o)` of what point `t` writes is the layer's entry `(2t + p, n, o)`, because entry `(p, ·, ·)` of
  each input block is entry `(2t + p, ·, ·)` of its array; batch `b` is written by point `b / 2`, so the 16 blocks cover
  the result array.
-/
import proofs.«113447_j64226940944904_2_alg».proof.Proof.Gen.KernelIdeal.Value
import proofs.«113447_j64226940944904_2_alg».proof.Proof.KernelPayload
import proofs.«113447_j64226940944904_2_alg».proof.Proof.Spec
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The four argument arrays as launched, as functions of their indices. -/
abbrev argX (c : Dev nD) : S32x1024x64.Idx → EReal := m ((c : Thread nD τ).loc main_arg0)
abbrev argA (c : Dev nD) : S32x1024x1024.Idx → EReal := m ((c : Thread nD τ).loc main_arg1)
abbrev argW (c : Dev nD) : S64x128.Idx → EReal := m ((c : Thread nD τ).loc main_arg2)
abbrev argB (c : Dev nD) : S128.Idx → EReal := m ((c : Thread nD τ).loc main_arg3)

/-- The result array as one function of them. -/
abbrev result (c : Dev nD) : S32x1024x128.Idx → EReal :=
  Cert.Gcn.layer (argX m c) (argA m c) (argW m c) (argB m c)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the host leaves in the two arrays it prepares -/

/-- The weight array the region finds: the weights, their float format changed. -/
theorem V_weights (c : Dev nD) : @Eq (S64x128.Idx → EReal) (V m c main_v0) (argW m c) := by
  dsimp only [V, hostOps0]; after_results; rfl

/-- The bias array the region finds: the bias as a one-row matrix. -/
theorem V_bias (c : Dev nD) :
    @Eq (S1x128.Idx → EReal) (V m c main_v1) (shapeCast S1x128 (argB m c) shapeCasts_S128_S1x128) := by
  dsimp only [V, hostOps0]; after_results; rfl

/-! ## Where each window's block sits -/

/-- The printed index maps over the grid: the adjacency, feature and result windows move along the batch axis with the
    point; the weight and bias windows stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Entry `(p, n, k)` of the adjacency block at point `t` is entry `(2t + p, n, k)` of the adjacency array. -/
theorem adj_block (c : Dev nD) (t : Fin cfg0.N) (p : Fin 2) (n k : Fin 1024) (b : Fin 32) (hb : b.val = t.val * 2 + p.val) :
    (iblk m c 0 t : Vec Ideal S2x1024x1024 .f32) (ix3 p n k)
      = argA m c (ix3 b n k) := by
  obtain ⟨e0, e1, e2, -⟩ := idx_facts t
  unfold iblk
  rw [View.read_apply]
  show V m c main_arg1 _ = _
  rw [V_main_arg1]
  refine congrArg _ (funext fun a => Fin.ext ?_)
  match a with
  | ⟨0, _⟩ => show win0_0.index t (0 : Fin 3) * 2 + 1 * p.val = b.val; omega
  | ⟨1, _⟩ => show win0_0.index t (1 : Fin 3) * 1024 + 1 * n.val = n.val; omega
  | ⟨2, _⟩ => show win0_0.index t (2 : Fin 3) * 1024 + 1 * k.val = k.val; omega

/-- Entry `(p, k, f)` of the feature block at point `t` is entry `(2t + p, k, f)` of the feature array. -/
theorem feat_block (c : Dev nD) (t : Fin cfg0.N) (p : Fin 2) (k : Fin 1024) (f : Fin 64) (b : Fin 32) (hb : b.val = t.val * 2 + p.val) :
    (iblk m c 1 t : Vec Ideal S2x1024x64 .f32) (ix3 p k f) = argX m c (ix3 b k f) := by
  obtain ⟨-, -, -, e0, e1, e2, -⟩ := idx_facts t
  unfold iblk
  rw [View.read_apply]
  show V m c main_arg0 _ = _
  rw [V_main_arg0]
  refine congrArg _ (funext fun a => Fin.ext ?_)
  match a with
  | ⟨0, _⟩ => show win0_1.index t (0 : Fin 3) * 2 + 1 * p.val = b.val; omega
  | ⟨1, _⟩ => show win0_1.index t (1 : Fin 3) * 1024 + 1 * k.val = k.val; omega
  | ⟨2, _⟩ => show win0_1.index t (2 : Fin 3) * 64 + 1 * f.val = f.val; omega

/-- The weight block at every point is the weight matrix. -/
theorem weight_block (c : Dev nD) (t : Fin cfg0.N) (f : Fin 64) (o : Fin 128) :
    (iblk m c 2 t : Vec Ideal S64x128 .bf16) (ix2 f o) = argW m c (ix2 f o) := by
  obtain ⟨-, -, -, -, -, -, e0, e1, -⟩ := idx_facts t
  unfold iblk
  rw [View.read_apply]
  show V m c main_v0 _ = _
  rw [V_weights]
  refine congrArg _ (funext fun a => Fin.ext ?_)
  match a with
  | ⟨0, _⟩ => show win0_2.index t (0 : Fin 2) * 64 + 1 * f.val = f.val; omega
  | ⟨1, _⟩ => show win0_2.index t (1 : Fin 2) * 128 + 1 * o.val = o.val; omega

/-- The bias block at every point is the bias as a row: entry `(0, o)` is the bias of channel `o`. -/
theorem bias_block (c : Dev nD) (t : Fin cfg0.N) (o : Fin 128) :
    (iblk m c 3 t : Vec Ideal S1x128 .f32) (ix2 (0 : Fin 1) o) = argB m c (ix1 o) := by
  obtain ⟨-, -, -, -, -, -, -, -, e0, e1, -⟩ := idx_facts t
  unfold iblk
  rw [View.read_apply]
  show V m c main_v1 _ = _
  rw [V_bias]
  refine shapeCast_apply (argB m c) shapeCasts_S128_S1x128 _ (ix1 o) ?_
  rw [Shape.rowMajor_val_one, Shape.rowMajor_val_two]
  show o.val = (win0_3.index t (0 : Fin 2) * 1 + 1 * 0) * 128 + (win0_3.index t (1 : Fin 2) * 128 + 1 * o.val)
  omega

/-- Index `(p, n, o)` of the result block at point `t` is index `(2t + p, n, o)` of the result array. -/
theorem out_emb (t : Fin cfg0.N) (p : Fin 2) (n : Fin 1024) (o : Fin 128) (b : Fin 32) (hb : b.val = t.val * 2 + p.val) :
    ((cfg0.win 4).blk t).view.emb (ix3 p n o) = ix3 b n o := by
  obtain ⟨-, -, -, -, -, -, -, -, -, -, e0, e1, e2⟩ := idx_facts t
  refine funext fun a => Fin.ext ?_
  match a with
  | ⟨0, _⟩ => show win0_4.index t (0 : Fin 3) * 2 + 1 * p.val = b.val; omega
  | ⟨1, _⟩ => show win0_4.index t (1 : Fin 3) * 1024 + 1 * n.val = n.val; omega
  | ⟨2, _⟩ => show win0_4.index t (2 : Fin 3) * 128 + 1 * o.val = o.val; omega

/-! ## What each point writes back, and the whole array -/

/-- Point `t` writes back block `t` of the layer function of the arguments. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero hz3]
  simp only [View.ld_unit_zero (S := S2x1024x1024) hz3, View.ld_unit_zero (S := S2x1024x64) hz3,
    View.ld_unit_zero (S := S64x128) hz2, View.ld_unit_zero (S := S1x128) hz2]
  funext j
  obtain ⟨p, n, o, rfl⟩ : ∃ (p : Fin 2) (n : Fin 1024) (o : Fin 128), j = ix3 p n o := ⟨j 0, j 1, j 2, eq_ix3 j⟩
  have hN : t.val < 16 := by have h := t.isLt; have e : cfg0.N = 16 := N_0; omega
  have hp : p.val < 2 := p.isLt
  show k0_pay1 (iblk m c 0 t) (iblk m c 1 t) (iblk m c 2 t) (iblk m c 3 t) (ix3 p n o)
    = result m c (((cfg0.win 4).blk t).view.emb (ix3 p n o))
  rw [out_emb t p n o ⟨t.val * 2 + p.val, by omega⟩ rfl]
  refine (Cert.KernelIdeal.Block.pay_apply (iblk m c 0 t) (iblk m c 1 t) (iblk m c 2 t) (iblk m c 3 t) p n o).trans ?_
  have hA : ∀ k : Fin 1024, (iblk m c 0 t : Vec Ideal S2x1024x1024 .f32) (ix3 p n k) = argA m c (ix3 ⟨t.val * 2 + p.val, by omega⟩ n k) :=
    fun k => adj_block m c t p n k _ rfl
  have hX : ∀ (k : Fin 1024) (f : Fin 64), (iblk m c 1 t : Vec Ideal S2x1024x64 .f32) (ix3 p k f) = argX m c (ix3 ⟨t.val * 2 + p.val, by omega⟩ k f) :=
    fun k f => feat_block m c t p k f _ rfl
  simp only [hA, hX, weight_block m c t, bias_block m c t]
  rfl

/-- An index of the result array is in point `t`'s block iff each coordinate is in the block's range on its axis. -/
theorem mem_blk (t : Fin cfg0.N) (i : S32x1024x128.Idx) :
    i ∈ ((cfg0.win 4).blk t).view.set ↔ ∀ a : Fin 3, win0_4.index t a * S2x1024x128.size a ≤ (i a).val ∧ (i a).val < win0_4.index t a * S2x1024x128.size a + S2x1024x128.size a := by
  show i ∈ ((View.whole main_v2).slice (win0_4.rect t)).set ↔ _
  rw [View.set_slice_whole, Rect.mem_set_unit]
  exact Iff.rfl

/-- Every index of the result array is in the block of the point that takes its batch. -/
theorem covered (i : S32x1024x128.Idx) :
    ∃ t : Fin cfg0.N, (cfg0.win 4).flush t = true ∧ i ∈ ((cfg0.win 4).blk t).view.set := by
  have hi0 : (i 0).val < 32 := (i 0).isLt
  have hi1 : (i 1).val < 1024 := (i 1).isLt
  have hi2 : (i 2).val < 128 := (i 2).isLt
  have hN : cfg0.N = 16 := N_0
  refine ⟨⟨(i 0).val / 2, by rw [hN]; omega⟩, flush0_4 _, ?_⟩
  rw [mem_blk]
  obtain ⟨-, -, -, -, -, -, -, -, -, -, e0, e1, e2⟩ := idx_facts ⟨(i 0).val / 2, by rw [hN]; omega⟩
  intro a
  match a with
  | ⟨0, _⟩ =>
    show win0_4.index _ (0 : Fin 3) * 2 ≤ (i 0).val ∧ (i 0).val < win0_4.index _ (0 : Fin 3) * 2 + 2
    rw [e0]; show (i 0).val / 2 * 2 ≤ (i 0).val ∧ (i 0).val < (i 0).val / 2 * 2 + 2; omega
  | ⟨1, _⟩ =>
    show win0_4.index _ (1 : Fin 3) * 1024 ≤ (i 1).val ∧ (i 1).val < win0_4.index _ (1 : Fin 3) * 1024 + 1024
    rw [e1]; omega
  | ⟨2, _⟩ =>
    show win0_4.index _ (2 : Fin 3) * 128 ≤ (i 2).val ∧ (i 2).val < win0_4.index _ (2 : Fin 3) * 128 + 128
    rw [e2]; omega

/-- So the result array ends holding the layer function of the arguments. -/
theorem final (c : Dev nD) : (dats m 0 c).arrAt 4 cfg0.N = result m c :=
  (dats m 0 c).arrAt_eq_of_cover 4 (result m c) (fun t _ => flushed_eq m c t) covered

/-- The kernel's run, read: the result array at the layer function of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Whole

end
-- ==== Proof.RefLayer.lean ====
/-
  The reference program's result is the layer function of `Spec.lean`.

  The reference is five host operations and a rectifier: a batched product `adj · x` contracted over the neighbour
  axis, a product with the weight matrix contracted over the feature axis, the bias broadcast along batch and node,
  a sum, and the maximum with zero. Read at one index, each of the two products is a finite sum over its contraction
  coordinate, and the chain is the layer's entry at that index as it stands: no rearrangement of a sum is needed.
-/
import proofs.«113447_j64226940944904_2_alg».proof.Proof.Gen.ReferenceIdeal.Read
import proofs.«113447_j64226940944904_2_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The reference's last stage, at `Ideal`, is the layer function of the four arguments. -/
theorem result_eq_layer (x0 : (⟨S32x1024x64, .f32⟩ : BufTy).Contents (Elt Ideal)) (x1 : (⟨S32x1024x1024, .f32⟩ : BufTy).Contents (Elt Ideal))
    (x2 : (⟨S64x128, .f32⟩ : BufTy).Contents (Elt Ideal)) (x3 : (⟨S128, .f32⟩ : BufTy).Contents (Elt Ideal)) :
    val_main_v5 (F := Ideal) x0 x1 x2 x3 = Cert.Gcn.layer x0 x1 x2 x3 := by
  funext i
  -- the coordinates the composed index functions name are those of the layer's entry
  have eA : ∀ (f : Fin 64) (k : Fin 1024), lidx_main_v0 (lidx_main_v1 i f) k = ix3 (n0 := 32) (n1 := 1024) (n2 := 1024) (i 0) (i 1) k :=
    fun f k => funext fun a => by match a with | ⟨0, _⟩ => rfl | ⟨1, _⟩ => rfl | ⟨2, _⟩ => rfl
  have eX : ∀ (f : Fin 64) (k : Fin 1024), ridx_main_v0 (lidx_main_v1 i f) k = ix3 (n0 := 32) (n1 := 1024) (n2 := 64) (i 0) k f :=
    fun f k => funext fun a => by match a with | ⟨0, _⟩ => rfl | ⟨1, _⟩ => rfl | ⟨2, _⟩ => rfl
  have eW : ∀ f : Fin 64, ridx_main_v1 i f = ix2 (n0 := 64) (n1 := 128) f (i 2) :=
    fun f => funext fun a => by match a with | ⟨0, _⟩ => rfl | ⟨1, _⟩ => rfl
  have eB : idx_main_v2 (idx_main_v3 i) = ix1 (n := 128) (i 2) :=
    funext fun a => by match a with | ⟨0, _⟩ => rfl
  rw [val_main_v5_apply, val_main_v4_apply, val_main_v1_apply, val_main_v3_apply, val_main_v2_apply,
    val_main_call0_v0_apply, val_main_call0_cst_apply]
  simp only [val_main_v0_apply, eA, eX, eW, eB]
  show max (_ + _) (Ideal.ofBits .f32 0x00000000#32) = _
  rw [Ideal.ofBits_zero_f32]
  rfl

end Cert.ReferenceIdeal.RefValue

end
-- ==== Proof.lean ====
/-
  A graph-convolution layer computed two batches at a time by a pipelined kernel, against its plain array formula:
  the claims.

  Both programs compute, for a batch `b`, a node `n` and an output channel `o`,
    out[b, n, o] = max (Σ_f (Σ_k adj[b, n, k] · x[b, k, f]) · w[f, o] + bias[o]) 0
  (`Proof/Spec.lean`). The kernel rounds its matrix operands to bf16 and tiles the batch axis, neither of which is
  visible on the extended reals: a change of float format is the identity there, and each grid point's block of the
  result is the restriction of the one formula to its two batches (`Proof/KernelPayload.lean`, `Proof/KernelArray.lean`).
  The reference's chain of host operations reads, index by index, as the same formula with the sums in the same
  order (`Proof/RefLayer.lean`). No law of the extended reals beyond `0 + s = s` is used, so the finiteness of the inputs
  is not needed for the values; the three frames are the runs themselves with the result forgotten, and the kernel's
  idealization rewrote nothing.
-/
import proofs.«113447_j64226940944904_2_alg».proof.Defs
import proofs.«113447_j64226940944904_2_alg».proof.Proof.Gen.Kernel
import proofs.«113447_j64226940944904_2_alg».proof.Proof.Gen.Kernel.Skeleton
import proofs.«113447_j64226940944904_2_alg».proof.Proof.Gen.Kernel.Launch
import proofs.«113447_j64226940944904_2_alg».proof.Proof.Gen.Kernel.Points
import proofs.«113447_j64226940944904_2_alg».proof.Proof.Gen.Kernel.Frame
import proofs.«113447_j64226940944904_2_alg».proof.Proof.Gen.KernelIdeal
import proofs.«113447_j64226940944904_2_alg».proof.Proof.Gen.KernelIdeal.Skeleton
import proofs.«113447_j64226940944904_2_alg».proof.Proof.Gen.KernelIdeal.Launch
import proofs.«113447_j64226940944904_2_alg».proof.Proof.Gen.KernelIdeal.Points
import proofs.«113447_j64226940944904_2_alg».proof.Proof.Gen.KernelIdeal.Frame
import proofs.«113447_j64226940944904_2_alg».proof.Proof.Gen.ReferenceIdeal
import proofs.«113447_j64226940944904_2_alg».proof.Proof.Gen.Pre_finite_inputs
import proofs.«113447_j64226940944904_2_alg».proof.Proof.Gen.KernelIdeal.Value
import proofs.«113447_j64226940944904_2_alg».proof.Proof.Gen.ReferenceIdeal.Run
import proofs.«113447_j64226940944904_2_alg».proof.Proof.Gen.ReferenceIdeal.Read
import proofs.«113447_j64226940944904_2_alg».proof.Proof.KernelArray
import proofs.«113447_j64226940944904_2_alg».proof.Proof.RefLayer
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- On the extended reals the kernel's result array ends at the layer function of its arguments, and the reference's
    at its chain of host operations of arguments that agree with them, which is the same function. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v5_eq _ _ _ _).trans (Cert.ReferenceIdeal.RefValue.result_eq_layer _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
